-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S1024x4096, .f32⟩
  | .local _ .vmem, ⟨3, _⟩ => ⟨S1024x4096, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1024x4096_S1024x4096_0_0 : ∀ a, (![0, 0] : Fin 2 → Nat) a + S1024x4096.size a ≤ S1024x4096.size a
  h_S1024x4096 : 0 < S1024x4096.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .f32 = 32 ∨ (Rect.block (s := S4096x4096) S1024x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1024x512 : Shape := ⟨2, ![1024, 512]⟩
abbrev S1x512 : Shape := ⟨2, ![1, 512]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S4096x4096_S4096x4096_1_0 : S4096x4096.Transposes [1, 0] S4096x4096
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== Proof.LibDotTransposedRhs.lean ====
/-
  A two-dimensional matrix product whose right operand is contracted on its LAST axis — `M × K` by `N × K`, the product
  `A · Bᵀ`, no batch axis (`DotDims.transposedRhs M K N`, the dimension numbers `<[1], [1], [0], [0]>`) — read at an output
  index over the extended reals: a kernel's `tpu.matmul` into a zero accumulator is the finite sum
  `Σ_{k < K} lhs (r, k) · rhs (c, k)`, with the contraction index a plain `Fin K` and the operand indices built from
  coordinates. A printed record `dot_S…_1_1_0_0_n_n` of these dimension numbers IS `DotDims.transposedRhs M K N` (`rfl`: the
  lists coincide and the well-formedness field is a proposition).
-/
import Idealize.ShloMosaic.PureOps.Ideal.Laws
import Idealize.ShloMosaic.Lib.ValueIdx

namespace Idealize.ShloMosaic.DotTransposedRhs

open Idealize.ShloMosaic.ValueIdx

variable {M K N : Nat}

theorem contr_rank : (DotDims.transposedRhs M K N).contr.rank = 1 := rfl
theorem contr_size : (DotDims.transposedRhs M K N).contr.size ⟨0, by rw [contr_rank]; exact Nat.one_pos⟩ = K := rfl

/-- The left operand's row coordinate is the output's row. -/
theorem lhsIdx_val0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem lhsIdx_val1 (j : (⟨2, ![M, N]⟩ : Shape).Idx) (q : (DotDims.transposedRhs M K N).contr.Idx) :
    ((DotDims.transposedRhs M K N).lhsIdx j q 1).val = (q ⟨0, by rw [contr_rank]; exact Nat.one_pos⟩).val :=
  (DotDims.transposedRhs M K N).lhsIdx_val_of_single (cl := (1 : Fin 2)) rfl j q

/-- The right operand's row coordinate is the output's column. -/
theorem rhsIdx_val0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rhsIdx_val1 (j : (⟨2, ![M, N]⟩ : Shape).Idx) (q : (DotDims.transposedRhs M K N).contr.Idx) :
    ((DotDims.transposedRhs M K N).rhsIdx j q 1).val = (q ⟨0, by rw [contr_rank]; exact Nat.one_pos⟩).val :=
  (DotDims.transposedRhs M K N).rhsIdx_val_of_single (cr := (1 : Fin 2)) rfl j q

/-- The left operand's index at output index `(r, c)` and contraction position `k` is `(r, k)`. -/
theorem lhsIdx_eq (r : Fin M) (c : Fin N) (k : Fin K) :
    (DotDims.transposedRhs M K N).lhsIdx (ix2 r c) ((contrEquiv1 (DotDims.transposedRhs M K N) K contr_rank contr_size).symm k)
      = ix2 r k := by
  have hk := contrEquiv1_symm_val (DotDims.transposedRhs M K N) K contr_rank contr_size k
  funext a
  apply Fin.ext
  match a with
  | ⟨0, _⟩ => exact lhsIdx_val0 (ix2 r c) _
  | ⟨1, _⟩ => exact (lhsIdx_val1 (ix2 r c) _).trans hk

/-- The right operand's index there is `(c, k)`. -/
theorem rhsIdx_eq (r : Fin M) (c : Fin N) (k : Fin K) :
    (DotDims.transposedRhs M K N).rhsIdx (ix2 r c) ((contrEquiv1 (DotDims.transposedRhs M K N) K contr_rank contr_size).symm k)
      = ix2 c k := by
  have hk := contrEquiv1_symm_val (DotDims.transposedRhs M K N) K contr_rank contr_size k
  funext a
  apply Fin.ext
  match a with
  | ⟨0, _⟩ => exact rhsIdx_val0 (ix2 r c) _
  | ⟨1, _⟩ => exact (rhsIdx_val1 (ix2 r c) _).trans hk

/-- A kernel's product `A · Bᵀ` into the zero accumulator, at `(r, c)`: the sum over the contracted coordinate of
    `A (r, k) · B (c, k)`. -/
theorem matmul_apply_ix2 {φ₁ φ₂ : FTy} (prec : Option ContractPrecision) (lhs : FVec Ideal ⟨2, ![M, K]⟩ φ₁)
    (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, lhs (ix2 r k) * rhs (ix2 c k) := by
  rw [Ideal.matmul_constant_zero_apply,
    ← Equiv.sum_comp (contrEquiv1 (DotDims.transposedRhs M K N) K contr_rank contr_size).symm]
  refine Finset.sum_congr rfl fun k _ => ?_
  rw [lhsIdx_eq, rhsIdx_eq]

end Idealize.ShloMosaic.DotTransposedRhs
-- ==== Proof.KernelBlock.lean ====
/-
  One grid point of the one-pass kernel, entry by entry, over the extended reals. The body takes a block `X` of 512 rows of the
  input (all 4096 columns), a block `W` of 1024 rows of the weight matrix (all 4096 columns: one row per output feature) and the
  matching 1024 entries `b` of the bias as a row, and stores `X · Wᵀ + b`. The matrix unit's product into a zero accumulator is
  the finite sum over the contracted coordinate, and the bias row is repeated down the rows, so entry `(p, q)` of the stored
  block is

      Σ_{k < 4096} X(p, k) · W(q, k)  +  b(0, q).
-/
import proofs.«157427_g2000006859831670_pallasbulk_53_3_alg».proof.Proof.Gen.KernelIdeal.Skeleton
import proofs.«157427_g2000006859831670_pallasbulk_53_3_alg».proof.Proof.LibDotTransposedRhs
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

/-- The printed dimension numbers are those of a product `A · Bᵀ`. -/
theorem dot_eq : dot_S512x4096_S1024x4096_S512x1024_1_1_0_0_n_n = DotDims.transposedRhs 512 4096 1024 := rfl

/-- Entry `(p, q)` of what one grid point stores. -/
theorem stored_apply (x0 : Vec Ideal S512x4096 .f32) (x1 : Vec Ideal S1024x4096 .f32) (x2 : Vec Ideal S1x1024 .f32)
    (p : Fin 512) (q : Fin 1024) :
    k0_pay1 (F := Ideal) x0 x1 x2 (ix2 p q)
      = (∑ k : Fin 4096, x0 (ix2 p k) * x1 (ix2 q k)) + x2 (ix2 (0 : Fin 1) q) := by
  unfold k0_pay1
  refine (addf_apply _ _ _).trans ?_
  refine congrArg₂ (· + ·) ?_ ?_
  · rw [dot_eq]
    exact DotTransposedRhs.matmul_apply_ix2 none x0 x1 p q
  · rw [shapeCast_self]
    exact broadcastTo_1b_ab_apply x2 broadcasts_S1x1024_S512x1024 p q

end Cert.KernelIdeal.Block

end
-- ==== Proof.LibBlockedSum.lean ====
/-
  A finite sum over `n · B` consecutive positions, cut into `n` runs of `B` positions each: in any commutative additive
  monoid (the extended reals among them: no subtraction, no finiteness)

      Σ_{k < n·B} g k  =  Σ_{s < n} Σ_{j < B} g (B·s + j).

  This is the law by which a contraction accumulated run by run — a matrix product whose contracted axis is walked in
  blocks, each block's partial product added to a running total — is the one whole contraction.
-/
import Mathlib.Algebra.BigOperators.Fin
import Mathlib.Algebra.BigOperators.Intervals

namespace Idealize.ShloMosaic.BlockedSum

variable {M : Type*} [AddCommMonoid M]

/-- Over `Finset.range`: the first `n · B` positions are `n` runs of `B`. -/
theorem sum_range_blocks (B : ℕ) (g : ℕ → M) : ∀ n : ℕ,
    ∑ k ∈ Finset.range (n * B), g k = ∑ s ∈ Finset.range n, ∑ j ∈ Finset.range B, g (B * s + j)
  | 0 => by simp
  | n + 1 => by
    rw [Nat.succ_mul, Finset.sum_range_add, sum_range_blocks B g n, Finset.sum_range_succ, Nat.mul_comm n B]

/-- The same with the positions and the positions inside a run as `Fin` indices: the form a contraction over a
    coordinate of a shape takes. -/
theorem sum_fin_blocks (n B : ℕ) (g : ℕ → M) :
    ∑ k : Fin (n * B), g k.val = ∑ s ∈ Finset.range n, ∑ j : Fin B, g (B * s + j.val) := by
  rw [Fin.sum_univ_eq_sum_range (fun k => g k) (n * B), sum_range_blocks B g n]
  refine Finset.sum_congr rfl fun s _ => ?_
  exact (Fin.sum_univ_eq_sum_range (fun j => g (B * s + j)) B).symm

end Idealize.ShloMosaic.BlockedSum
-- ==== Proof.LinearSpec.lean ====
/-
  The specification both programs meet: a dense layer `y = x · Wᵀ + b` on 4096 rows, 4096 input and 4096 output features, the
  weights kept one ROW per output feature. Over the extended reals entry `(p, q)` of the result is

      lin x W b (p, q)  =  Σ_{k < 4096} x(p, k) · W(q, k)  +  b(q).

  The contraction may be walked in four runs of 1024 positions, each run's partial sum added to a running total that starts at
  zero: addition on the extended reals is commutative and associative with unit `0` (no subtraction is involved, so infinite
  entries need no care), hence

      lin x W b (p, q)  =  (0 + Σ_{s < 4} Σ_{j < 1024} x(p, 1024·s + j) · W(q, 1024·s + j))  +  b(q).

  To speak of the position `1024·s + j` without carrying its bound, an array is also read at natural-number coordinates
  (`at2`: the entry when both are in range, zero otherwise — the out-of-range value is never used).
-/
import Idealize.ShloMosaic.PureOps.Ideal.Laws
import Idealize.ShloMosaic.Lib.ValueIdx
import proofs.«157427_g2000006859831670_pallasbulk_53_3_alg».proof.Proof.LibBlockedSum

noncomputable section

namespace Cert.LinearSpec

open Idealize.ShloMosaic Idealize.ShloMosaic.ValueIdx

/-- A matrix read at natural-number coordinates: its entry when both are in range, zero otherwise. -/
def at2 {a b : ℕ} (x : (⟨2, ![a, b]⟩ : Shape).Idx → EReal) (r c : ℕ) : EReal :=
  if h : r < a ∧ c < b then x (ix2 ⟨r, h.1⟩ ⟨c, h.2⟩) else 0

/-- At coordinates in range it is the entry. -/
theorem at2_ix2 {a b : ℕ} (x : (⟨2, ![a, b]⟩ : Shape).Idx → EReal) (p : Fin a) (q : Fin b) :
    at2 x p.val q.val = x (ix2 p q) := by
  unfold at2
  rw [dif_pos ⟨p.isLt, q.isLt⟩]

/-- An entry, read at the natural numbers its index's coordinates are. -/
theorem eq_at2 {a b : ℕ} (x : (⟨2, ![a, b]⟩ : Shape).Idx → EReal) (i : (⟨2, ![a, b]⟩ : Shape).Idx) (r c : ℕ)
    (h0 : (i 0).val = r) (h1 : (i 1).val = c) : x i = at2 x r c := by
  subst h0 h1
  rw [eq_ix2 i]
  exact (at2_ix2 x (i 0) (i 1)).symm

/-- The dense layer: entry `(p, q)` is `Σ_k x(p,k)·W(q,k) + b(q)`. -/
def lin (x w : (⟨2, ![4096, 4096]⟩ : Shape).Idx → EReal) (b : (⟨1, ![4096]⟩ : Shape).Idx → EReal) :
    (⟨2, ![4096, 4096]⟩ : Shape).Idx → EReal :=
  fun i => (∑ k : Fin 4096, x (ix2 ⟨(i 0).val, idx2_lt0 i⟩ k) * w (ix2 ⟨(i 1).val, idx2_lt1 i⟩ k))
    + b (ix1 ⟨(i 1).val, idx2_lt1 i⟩)

theorem lin_ix2 (x w : (⟨2, ![4096, 4096]⟩ : Shape).Idx → EReal) (b : (⟨1, ![4096]⟩ : Shape).Idx → EReal) (p q : Fin 4096) :
    lin x w b (ix2 p q) = (∑ k : Fin 4096, x (ix2 p k) * w (ix2 q k)) + b (ix1 q) := rfl

/-- The contraction in four runs of 1024 positions added to a running total from zero. -/
theorem lin_blocked (x w : (⟨2, ![4096, 4096]⟩ : Shape).Idx → EReal) (b : (⟨1, ![4096]⟩ : Shape).Idx → EReal) (p q : Fin 4096) :
    lin x w b (ix2 p q)
      = ((0 : EReal) + ∑ s ∈ Finset.range 4, ∑ j : Fin 1024,
            at2 x p.val (1024 * s + j.val) * at2 w q.val (1024 * s + j.val)) + b (ix1 q) := by
  rw [lin_ix2, zero_add]
  refine congrArg (· + b (ix1 q)) ?_
  rw [← BlockedSum.sum_fin_blocks 4 1024 (fun k => at2 x p.val k * at2 w q.val k)]
  exact Finset.sum_congr rfl fun k _ => by rw [at2_ix2, at2_ix2]

/-- The same at any index of the result. -/
theorem lin_blocked_at (x w : (⟨2, ![4096, 4096]⟩ : Shape).Idx → EReal) (b : (⟨1, ![4096]⟩ : Shape).Idx → EReal)
    (i : (⟨2, ![4096, 4096]⟩ : Shape).Idx) :
    lin x w b i
      = ((0 : EReal) + ∑ s ∈ Finset.range 4, ∑ j : Fin 1024,
            at2 x (i 0).val (1024 * s + j.val) * at2 w (i 1).val (1024 * s + j.val)) + b (ix1 ⟨(i 1).val, idx2_lt1 i⟩) :=
  lin_blocked x w b ⟨(i 0).val, idx2_lt0 i⟩ ⟨(i 1).val, idx2_lt1 i⟩

end Cert.LinearSpec

end
-- ==== Proof.KernelValue.lean ====
/-
  The one-pass kernel's result array, as one function of the arguments, over the extended reals.

  The grid has 4 × 8 points. Point `t` owns the block of the result at block row `t mod 8` and block column `t / 8`
  (512 rows by 1024 columns), and reads the 512 rows of the input with that block row, the 1024 rows of the weight matrix with
  that block column, and the matching 1024 entries of the bias (the bias vector recast as a one-row matrix before the call).
  What the point writes back is therefore, entry by entry, its block of `lin x W b`; the 32 blocks tile the result, so the array
  ends holding `lin x W b`.
-/
import proofs.«157427_g2000006859831670_pallasbulk_53_3_alg».proof.Proof.Gen.KernelIdeal.Value
import proofs.«157427_g2000006859831670_pallasbulk_53_3_alg».proof.Proof.KernelBlock
import proofs.«157427_g2000006859831670_pallasbulk_53_3_alg».proof.Proof.LinearSpec
import Idealize.ShloMosaic.Lib.StableHlo.Run
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx Cert.LinearSpec
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The dense layer of the argument arrays as launched. -/
abbrev result (c : Dev nD) : S4096x4096.Idx → EReal :=
  lin (m ((c : Thread nD τ).loc main_arg0)) (m ((c : Thread nD τ).loc main_arg1)) (m ((c : Thread nD τ).loc main_arg2))

/-- The bias as the call finds it: the vector recast as a one-row matrix. -/
theorem bias_row (c : Dev nD) :
    (V m c main_v0 : S1x4096.Idx → EReal)
      = shapeCast S1x4096 (m ((c : Thread nD τ).loc main_arg2)) shapeCasts_S4096_S1x4096 := by
  dsimp only [Gen.V, Gen.hostOps0]; after_results; rfl

/-- The printed index maps, decided over the grid: the input's block row and the bias' and weights' block are the output's
    block row and block column; the other block indices are zero. -/
theorem index_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2) :=
  (by decide +kernel : ∀ t : Fin grid0.N, _)

/-- Every block of the result is some point's. -/
theorem index_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-- What point `t` writes back is its block of the dense layer of the arguments. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero offsets_zero]
  simp only [View.ld_unit_zero (S := S512x4096) offsets_zero, View.ld_unit_zero (S := S1024x4096) offsets_zero,
    View.ld_unit_zero (S := S1x1024) offsets_zero]
  obtain ⟨e0, e1, e2, e3, e4, e5⟩ := index_facts t
  funext j
  obtain ⟨p, q, rfl⟩ : ∃ (p : Fin 512) (q : Fin 1024), j = ix2 p q := ⟨j 0, j 1, eq_ix2 j⟩
  show k0_pay1 (iblk m c 0 t) (iblk m c 1 t) (iblk m c 2 t) (ix2 p q) = result m c (((cfg0.win 3).blk t).view.emb (ix2 p q))
  refine (Block.stored_apply (iblk m c 0 t) (iblk m c 1 t) (iblk m c 2 t) p q).trans ?_
  unfold result lin
  refine congrArg₂ (· + ·) (Finset.sum_congr rfl fun k _ => congrArg₂ (· * ·) ?_ ?_) ?_
  · show V m c main_arg0 (((cfg0.win 0).blk t).view.emb (ix2 p k)) = _
    rw [V_main_arg0]
    refine congrArg _ (funext fun a => Fin.ext ?_)
    match a with
    | ⟨0, _⟩ => show win0_0.index t (0 : Fin 2) * 512 + 1 * p.val = win0_3.index t (0 : Fin 2) * 512 + 1 * p.val; rw [e0]
    | ⟨1, _⟩ => show win0_0.index t (1 : Fin 2) * 4096 + 1 * k.val = k.val; rw [e1]; omega
  · show V m c main_arg1 (((cfg0.win 1).blk t).view.emb (ix2 q k)) = _
    rw [V_main_arg1]
    refine congrArg _ (funext fun a => Fin.ext ?_)
    match a with
    | ⟨0, _⟩ => show win0_1.index t (0 : Fin 2) * 1024 + 1 * q.val = win0_3.index t (1 : Fin 2) * 1024 + 1 * q.val; rw [e2]
    | ⟨1, _⟩ => show win0_1.index t (1 : Fin 2) * 4096 + 1 * k.val = k.val; rw [e3]; omega
  · show V m c main_v0 (((cfg0.win 2).blk t).view.emb (ix2 (0 : Fin 1) q)) = _
    rw [bias_row]
    refine shapeCast_apply _ shapeCasts_S4096_S1x4096 _ _ ?_
    rw [Shape.rowMajor_val_two, Shape.rowMajor_val_one]
    show win0_3.index t (1 : Fin 2) * 1024 + 1 * q.val
      = (win0_2.index t (0 : Fin 2) * 1 + 1 * 0) * 4096 + (win0_2.index t (1 : Fin 2) * 1024 + 1 * q.val)
    rw [e4, e5]; omega

/-- An index of the result is in point `t`'s block iff each coordinate is in the block's range on its axis. -/
theorem mem_block (t : Fin cfg0.N) (i : S4096x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v1).slice (win0_3.rect t)).set ↔ _
  rw [View.set_slice_whole, Rect.mem_set_unit]
  exact Iff.rfl

/-- The blocks tile the result: the point with block row `i₀ / 512` and block column `i₁ / 1024` covers index `i`. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := index_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The result array after the run. -/
theorem final (c : Dev nD) : (dats m 0 c).arrAt 3 cfg0.N = result m c :=
  (dats m 0 c).arrAt_eq_of_cover 3 (result m c) (fun t _ => flushed_eq m c t) cover

/-- The run: every weakly fair execution ends with the result array at the dense layer of the arguments, the arguments
    unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.RefBlock.lean ====
/-
  The K-blocked kernel's three stored values, entry by entry, over the extended reals. At one grid point the body holds a block
  `X` of 512 rows by 1024 contraction positions of the input, the matching block `Wt` of 1024 positions by 512 columns of the
  TRANSPOSED weights, and a running total `acc` (512 by 512) it carries from point to point:
  • at the first of the four contraction blocks it sets the total to zero;
  • at every block it adds the block's partial product: entry `(p, q)` becomes `acc(p, q) + Σ_{k < 1024} X(p, k) · Wt(k, q)`
    (the matrix unit's product into a zero accumulator is the finite sum over the contracted coordinate);
  • at the last block it stores the total plus the bias row repeated down the rows: `acc(p, q) + b(0, q)`.
-/
import proofs.«157427_g2000006859831670_pallasbulk_53_3_alg».proof.Proof.Gen.ReferenceIdeal.Skeleton
import proofs.«157427_g2000006859831670_pallasbulk_53_3_alg».proof.Proof.LibPlainDot
import Idealize.ShloMosaic.Lib.ValueLayout
import Idealize.ShloMosaic.Lib.Pipeline.Value

noncomputable section

namespace Cert.ReferenceIdeal.Block

open Cert.ReferenceIdeal Cert.ReferenceIdeal.Gen Idealize.ShloMosaic Idealize.ShloMosaic.ValueIdx

/-- The printed dimension numbers are those of a plain product `A · B`. -/
theorem dot_eq : dot_S512x1024_S1024x512_S512x512_1_0_0_1_n_n = DotDims.plain 512 1024 512 := rfl

/-- The reset value: zero everywhere. -/
theorem reset_apply (i : S512x512.Idx) : k0_pay1 (F := Ideal) i = 0 := by
  unfold k0_pay1
  rw [shapeCast_self]
  exact Ideal.ofBits_zero_f32

/-- One accumulation step at `(p, q)`: the running total plus the block's partial product. -/
theorem step_apply (acc : Vec Ideal S512x512 .f32) (x : Vec Ideal S512x1024 .f32) (wt : Vec Ideal S1024x512 .f32)
    (p q : Fin 512) :
    k0_pay2 (F := Ideal) acc x wt (ix2 p q) = acc (ix2 p q) + ∑ k : Fin 1024, x (ix2 p k) * wt (ix2 k q) := by
  unfold k0_pay2
  rw [shapeCast_self, shapeCast_self]
  refine (addf_apply _ _ _).trans ?_
  refine congrArg (acc (ix2 p q) + ·) ?_
  rw [dot_eq]
  exact PlainDot.matmul_apply_ix2 none x wt p q

/-- The epilogue at `(p, q)`: the total plus the bias entry of column `q`. -/
theorem epilogue_apply (acc : Vec Ideal S512x512 .f32) (b : Vec Ideal S1x512 .f32) (p q : Fin 512) :
    k0_pay3 (F := Ideal) acc b (ix2 p q) = acc (ix2 p q) + b (ix2 (0 : Fin 1) q) := by
  unfold k0_pay3
  refine (addf_apply _ _ _).trans ?_
  refine congrArg (acc (ix2 p q) + ·) ?_
  rw [shapeCast_self]
  exact broadcastTo_1b_ab_apply b broadcasts_S1x512_S512x512 p q

end Cert.ReferenceIdeal.Block

end
-- ==== Proof.RefPieces.lean ====
/-
  What each control case of the K-blocked kernel leaves behind, as terms over the body's three stored values. The body has
  three cases, by the position `k` of the grid point along the contraction axis:
  • first block (`k = 0`): the running total is set to zero and then stepped once — it ends at `step zero X Wt`;
  • a middle block: the total is stepped from what the point before left — `step acc X Wt`; nothing is stored to the output;
  • last block (`k = 3`): the total is stepped, and the output block is the stepped total plus the bias row —
    `epilogue (step acc X Wt) b`.
  Each is read off the stores the case's run made: a store through the whole buffer, made last, leaves its value, and a load
  through the whole buffer of what one such store left reads that value back.
-/
import proofs.«157427_g2000006859831670_pallasbulk_53_3_alg».proof.Proof.Gen.ReferenceIdeal.Frame
import Idealize.ShloMosaic.Lib.Pipeline.Value
import Idealize.ShloMosaic.Lib.Tactic

set_option maxRecDepth 16384

noncomputable section

namespace Cert.ReferenceIdeal.Pieces

open Cert.ReferenceIdeal Cert.ReferenceIdeal.Gen Idealize.ShloMosaic Idealize.ShloMosaic.TcCoe Idealize.ShloMosaic.Tactic
open Idealize.SL.Sem

variable {F : FTy → Type} [FloatOps F]

theorem offsets_zero : (![0, 0] : Fin 2 → Nat) = fun _ => 0 := funext fun a => by fin_cases a <;> rfl

/-- First block: the total ends at one step from the reset value. -/
theorem total_first (c : Dev nD) (i : grid0.Coords) (arg3 : Memref sig .tc .vmem S512x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i) (x0 : Vec F S512x1024 .f32) (x1 : Vec F S1024x512 .f32) (x2 : Vec F S1x512 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero offsets_zero, View.readCov_unit_zero _ offsets_zero]
  simp only [View.readAt_eq_ld, harg3.read_unread, harg4.read_unread, View.ld_unit_zero (S := S512x1024) offsets_zero,
    View.ld_unit_zero (S := S1024x512) offsets_zero]

/-- A middle block: the total ends at one step from what the point before left. -/
theorem total_middle (c : Dev nD) (i : grid0.Coords) (arg3 : Memref sig .tc .vmem S512x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i) (x0 : Vec F S512x1024 .f32) (x1 : Vec F S1024x512 .f32) (x2 : Vec F S1x512 .f32) (xs0 : Vec F S512x512 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero offsets_zero]
  simp only [View.readAt_eq_ld, harg3.read_unread, harg4.read_unread, harg7.read_unread,
    View.ld_unit_zero (S := S512x1024) offsets_zero, View.ld_unit_zero (S := S1024x512) offsets_zero,
    View.ld_unit_zero (S := S512x512) offsets_zero]

/-- Last block: the total likewise, -/
theorem total_last (c : Dev nD) (i : grid0.Coords) (arg3 : Memref sig .tc .vmem S512x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i) (x0 : Vec F S512x1024 .f32) (x1 : Vec F S1024x512 .f32) (x2 : Vec F S1x512 .f32) (xs0 : Vec F S512x512 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero offsets_zero]
  simp only [View.readAt_eq_ld, harg3.read_unread, harg4.read_unread, harg7.read_unread,
    View.ld_unit_zero (S := S512x1024) offsets_zero, View.ld_unit_zero (S := S1024x512) offsets_zero,
    View.ld_unit_zero (S := S512x512) offsets_zero]

/-- and the output block is the stepped total plus the bias row. -/
theorem output_last (c : Dev nD) (i : grid0.Coords) (arg3 : Memref sig .tc .vmem S512x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i) (x0 : Vec F S512x1024 .f32) (x1 : Vec F S1024x512 .f32) (x2 : Vec F S1x512 .f32) (xs0 : Vec F S512x512 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero offsets_zero, View.readCov_unit_zero _ offsets_zero]
  simp only [View.readAt_eq_ld, harg3.read_unread, harg4.read_unread, harg5.read_unread, harg7.read_unread,
    View.ld_unit_zero (S := S512x1024) offsets_zero, View.ld_unit_zero (S := S1024x512) offsets_zero,
    View.ld_unit_zero (S := S512x512) offsets_zero, View.ld_unit_zero (S := S1x512) offsets_zero]

end Cert.ReferenceIdeal.Pieces

end
-- ==== Proof.RefFold.lean ====
/-
  The K-blocked kernel's running total, over the extended reals. The grid has 8 × 8 × 4 = 256 points in row-major order: point
  `n` works on block row `n / 32` of the result, block column `(n / 4) mod 8`, and contraction block `n mod 4`. It reads
  • the 512 × 1024 block of the input at block row `n / 32` and contraction block `n mod 4`;
  • the 1024 × 512 block of the TRANSPOSED weights (transposed before the call) at contraction block `n mod 4` and block column
    `(n / 4) mod 8` — entry `(k, q)` of it is the weight matrix's entry `(512·((n/4) mod 8) + q, 1024·(n mod 4) + k)`;
  • the 512 bias entries of that block column (the bias recast as a one-row matrix before the call).
  So one step adds, at `(p, q)`, the partial product `partialProduct n (p, q) = Σ_{k < 1024} x(P, 1024·(n mod 4) + k) · W(Q, 1024·(n mod 4) + k)`
  with `P`, `Q` the global row and column. The total is reset at the points `≡ 0 (mod 4)` and stepped at every point, so after
  point `t` it is zero plus the partial products of the points `4·(t/4) … t` — the fold of the run, unrolled at an index.
-/
import proofs.«157427_g2000006859831670_pallasbulk_53_3_alg».proof.Proof.Gen.ReferenceIdeal.Value
import proofs.«157427_g2000006859831670_pallasbulk_53_3_alg».proof.Proof.RefBlock
import proofs.«157427_g2000006859831670_pallasbulk_53_3_alg».proof.Proof.RefPieces
import proofs.«157427_g2000006859831670_pallasbulk_53_3_alg».proof.Proof.LinearSpec
import Idealize.ShloMosaic.Lib.StableHlo.Run
import Idealize.ShloMosaic.Lib.ValueLayout

noncomputable section

namespace Cert.ReferenceIdeal.Fold

open Cert.ReferenceIdeal Cert.ReferenceIdeal.Gen Idealize.ShloMosaic Idealize.ShloMosaic.TcCoe Idealize.SL.Sem
open Idealize.ShloMosaic.ValueIdx Cert.LinearSpec
open Idealize.ShloMosaic.Pipeline (Dat)

section AnyInstance

variable {F : FTy → Type} [FloatOps F]
variable (m : (ℓ : Loc nD τ sig) → Buf (Elt F) ℓ)

/-- At a point `≡ 0 (mod 4)` the total ends one step from the reset value, whatever it held before. -/
theorem total_at_first (c : Dev nD) (n : ℕ) (hb : n < cfg0.N) (acc : Vec F S512x512 .f32) (h0 : n % 4 = 0) :
    Value.scAt0_0 m c n hb acc = k0_pay2 (k0_pay1 (F := F)) (iblk m c 0 (⟨n, hb⟩ : Fin cfg0.N)) (iblk m c 1 (⟨n, hb⟩ : Fin cfg0.N)) := by
  have h1 : ¬n % 4 = 3 := by omega
  unfold Value.scAt0_0
  rw [dif_pos h0, dif_neg h1]
  exact Pieces.total_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N))

/-- At any other point it ends one step from what the point before left. -/
theorem total_at_later (c : Dev nD) (n : ℕ) (hb : n < cfg0.N) (acc : Vec F S512x512 .f32) (h0 : ¬n % 4 = 0) :
    Value.scAt0_0 m c n hb acc = k0_pay2 acc (iblk m c 0 (⟨n, hb⟩ : Fin cfg0.N)) (iblk m c 1 (⟨n, hb⟩ : Fin cfg0.N)) := by
  unfold Value.scAt0_0
  by_cases h1 : n % 4 = 3
  · rw [dif_neg h0, dif_pos h1]
    exact Pieces.total_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc
  · rw [dif_neg h0, dif_neg h1]
    exact Pieces.total_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc

/-- At a point `≡ 3 (mod 4)` the output block is the total that point leaves plus the bias row. -/
theorem output_at_last (c : Dev nD) (t : Fin cfg0.N) (h1 : t.val % 4 = 3) :
    (outsAt0 m c t.val t.isLt).1 = k0_pay3 (outsAt0 m c t.val t.isLt).2 (iblk m c 2 t) := by
  have h0 : ¬t.val % 4 = 0 := by omega
  rw [outsAt0_C m c t h0 h1]
  dsimp only
  exact (Pieces.output_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).trans
    (congrArg (fun z => k0_pay3 z (iblk m c 2 t))
      (Pieces.total_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).symm)

end AnyInstance

variable (m : (ℓ : Loc nD τ sig) → Buf (Elt Ideal) ℓ)

/-- The weights as the call finds them: the weight matrix transposed. -/
theorem weights_transposed (c : Dev nD) :
    (V m c main_v0 : S4096x4096.Idx → EReal)
      = transpose S4096x4096 [1, 0] (m ((c : Thread nD τ).loc main_arg1)) transposes_S4096x4096_S4096x4096_1_0 := by
  dsimp only [Gen.V, Gen.hostOps0]; after_results

/-- The bias as the call finds it: the vector recast as a one-row matrix. -/
theorem bias_row (c : Dev nD) :
    (V m c main_v1 : S1x4096.Idx → EReal)
      = shapeCast S1x4096 (m ((c : Thread nD τ).loc main_arg2)) shapeCasts_S4096_S1x4096 := by
  dsimp only [Gen.V, Gen.hostOps0]; after_results; rfl

/-- The printed index maps in closed form, decided over the 256 points. -/
theorem index_facts : ∀ t : Fin cfg0.N,
    win0_0.index t (0 : Fin 2) = t.val / 32 ∧ win0_0.index t (1 : Fin 2) = t.val % 4
    ∧ win0_1.index t (0 : Fin 2) = t.val % 4 ∧ win0_1.index t (1 : Fin 2) = t.val / 4 % 8
    ∧ win0_2.index t (0 : Fin 2) = 0 ∧ win0_2.index t (1 : Fin 2) = t.val / 4 % 8
    ∧ win0_3.index t (0 : Fin 2) = t.val / 32 ∧ win0_3.index t (1 : Fin 2) = t.val / 4 % 8 :=
  (by decide +kernel : ∀ t : Fin grid0.N, _)

/-- The input's block at point `t`, at `(p, k)`: the input at row `512·(t/32) + p`, column `1024·(t mod 4) + k`. -/
theorem input_block (c : Dev nD) (t : Fin cfg0.N) (p : Fin 512) (k : Fin 1024) :
    (iblk m c 0 t : S512x1024.Idx → EReal) (ix2 p k)
      = at2 (m ((c : Thread nD τ).loc main_arg0)) (512 * (t.val / 32) + p.val) (1024 * (t.val % 4) + k.val) := by
  obtain ⟨e0, e1, -⟩ := index_facts t
  show V m c main_arg0 (((cfg0.win 0).blk t).view.emb (ix2 p k)) = _
  rw [V_main_arg0]
  refine eq_at2 _ _ _ _ ?_ ?_
  · show win0_0.index t (0 : Fin 2) * 512 + 1 * p.val = _
    rw [e0]; omega
  · show win0_0.index t (1 : Fin 2) * 1024 + 1 * k.val = _
    rw [e1]; omega

/-- The transposed weights' block at point `t`, at `(k, q)`: the weight matrix at row `512·((t/4) mod 8) + q`, column
    `1024·(t mod 4) + k`. -/
theorem weight_block (c : Dev nD) (t : Fin cfg0.N) (k : Fin 1024) (q : Fin 512) :
    (iblk m c 1 t : S1024x512.Idx → EReal) (ix2 k q)
      = at2 (m ((c : Thread nD τ).loc main_arg1)) (512 * (t.val / 4 % 8) + q.val) (1024 * (t.val % 4) + k.val) := by
  obtain ⟨-, -, e2, e3, -⟩ := index_facts t
  have hk : win0_1.index t (0 : Fin 2) * 1024 + 1 * k.val < 4096 := by rw [e2]; omega
  have hq : win0_1.index t (1 : Fin 2) * 512 + 1 * q.val < 4096 := by rw [e3]; omega
  show V m c main_v0 (((cfg0.win 1).blk t).view.emb (ix2 k q)) = _
  rw [weights_transposed]
  refine (transpose_apply [1, 0] (m ((c : Thread nD τ).loc main_arg1)) transposes_S4096x4096_S4096x4096_1_0 _
    (ix2 ⟨win0_1.index t (1 : Fin 2) * 512 + 1 * q.val, hq⟩ ⟨win0_1.index t (0 : Fin 2) * 1024 + 1 * k.val, hk⟩)
    (fun b => match b with | ⟨0, _⟩ => rfl | ⟨1, _⟩ => rfl)).trans ?_
  refine eq_at2 _ _ _ _ ?_ ?_
  · show win0_1.index t (1 : Fin 2) * 512 + 1 * q.val = _
    rw [e3]; omega
  · show win0_1.index t (0 : Fin 2) * 1024 + 1 * k.val = _
    rw [e2]; omega

/-- The bias row's block at point `t`, at column `q`: the bias entry `512·((t/4) mod 8) + q`. -/
theorem bias_block (c : Dev nD) (t : Fin cfg0.N) (q : Fin 512) (hq : 512 * (t.val / 4 % 8) + q.val < 4096) :
    (iblk m c 2 t : S1x512.Idx → EReal) (ix2 (0 : Fin 1) q)
      = m ((c : Thread nD τ).loc main_arg2) (ix1 ⟨512 * (t.val / 4 % 8) + q.val, hq⟩) := by
  obtain ⟨-, -, -, -, e4, e5, -⟩ := index_facts t
  show V m c main_v1 (((cfg0.win 2).blk t).view.emb (ix2 (0 : Fin 1) q)) = _
  rw [bias_row]
  refine shapeCast_apply _ shapeCasts_S4096_S1x4096 _ _ ?_
  rw [Shape.rowMajor_val_two, Shape.rowMajor_val_one]
  show 512 * (t.val / 4 % 8) + q.val
    = (win0_2.index t (0 : Fin 2) * 1 + 1 * 0) * 4096 + (win0_2.index t (1 : Fin 2) * 512 + 1 * q.val)
  rw [e4, e5]; omega

/-- The partial product of contraction block `n mod 4` that point `n` adds, at a block index. -/
def partialProduct (c : Dev nD) (n : ℕ) : S512x512.Idx → EReal := fun i =>
  ∑ k : Fin 1024,
    at2 (m ((c : Thread nD τ).loc main_arg0)) (512 * (n / 32) + (i 0).val) (1024 * (n % 4) + k.val)
      * at2 (m ((c : Thread nD τ).loc main_arg1)) (512 * (n / 4 % 8) + (i 1).val) (1024 * (n % 4) + k.val)

/-- One step at point `n`: the total plus that point's partial product. -/
theorem step_at (c : Dev nD) (n : ℕ) (hb : n < cfg0.N) (acc : Vec Ideal S512x512 .f32) (i : S512x512.Idx) :
    k0_pay2 (F := Ideal) acc (iblk m c 0 (⟨n, hb⟩ : Fin cfg0.N)) (iblk m c 1 (⟨n, hb⟩ : Fin cfg0.N)) i = acc i + partialProduct m c n i := by
  obtain ⟨p, q, rfl⟩ : ∃ (p : Fin 512) (q : Fin 512), i = ix2 p q := ⟨i 0, i 1, eq_ix2 i⟩
  refine (Block.step_apply acc (iblk m c 0 (⟨n, hb⟩ : Fin cfg0.N)) (iblk m c 1 (⟨n, hb⟩ : Fin cfg0.N)) p q).trans ?_
  refine congrArg (acc (ix2 p q) + ·) (Finset.sum_congr rfl fun k _ => congrArg₂ (· * ·) ?_ ?_)
  · exact input_block m c (⟨n, hb⟩ : Fin cfg0.N) p k
  · exact weight_block m c (⟨n, hb⟩ : Fin cfg0.N) k q

/-- THE TOTAL AFTER POINT `t`, at an index: zero plus the partial products of the points `4·(t/4) … t` of its run. -/
theorem total_after (c : Dev nD) (t : Fin cfg0.N) (i : S512x512.Idx) :
    (outsAt0 m c t.val t.isLt).2 i
      = (0 : EReal) + ∑ s ∈ Finset.range (t.val % 4 + 1), partialProduct m c (4 * (t.val / 4) + s) i := by
  rw [Value.soutsAt0_0_eq m c t]
  refine Pipeline.accAt_add_apply _ _ (fun _ => (0 : EReal)) (partialProduct m c) (4 * (t.val / 4)) 3 ?_ ?_
    (t.val % 4) (by omega) _ i
  · intro h i
    rw [total_at_first m c _ h _ (by omega)]
    refine (step_at m c _ h _ i).trans ?_
    exact congrArg (· + partialProduct m c (4 * (t.val / 4)) i) (Block.reset_apply i)
  · intro n h acc i hlo hhi
    rw [total_at_later m c n h acc (by omega)]
    exact step_at m c n h acc i

end Cert.ReferenceIdeal.Fold

end
-- ==== Proof.RefValue.lean ====
/-
  The K-blocked kernel's result array, as one function of the arguments, over the extended reals.

  The output block of block row `t / 32` and block column `(t / 4) mod 8` is written back at the last point of its run, `t ≡ 3
  (mod 4)`. What is written there is the running total after that point plus the bias row: at `(p, q)`,

      (0 + Σ_{s < 4} partialProduct (4·(t/4) + s) (p, q)) + b(Q),

  and the four partial products are the four runs of 1024 positions of the one contraction `Σ_{k < 4096} x(P, k) · W(Q, k)`. So the
  block is, entry by entry, its block of `lin x W b`; the 64 blocks tile the result.
-/
import proofs.«157427_g2000006859831670_pallasbulk_53_3_alg».proof.Proof.RefFold

noncomputable section

namespace Cert.ReferenceIdeal.Whole

open Cert.ReferenceIdeal Cert.ReferenceIdeal.Gen Idealize.ShloMosaic Idealize.ShloMosaic.TcCoe Idealize.SL.Sem
open Idealize.ShloMosaic.ValueIdx Cert.LinearSpec
open Idealize.ShloMosaic.Pipeline (Dat)

variable (m : (ℓ : Loc nD τ sig) → Buf (Elt Ideal) ℓ) (ρ : Dev nD → PrngReg)

/-- The dense layer of the argument arrays as launched. -/
abbrev result (c : Dev nD) : S4096x4096.Idx → EReal :=
  lin (m ((c : Thread nD τ).loc main_arg0)) (m ((c : Thread nD τ).loc main_arg1)) (m ((c : Thread nD τ).loc main_arg2))

/-- What a point that writes back writes is its block of the dense layer of the arguments. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have hN : t.val < 256 := lt_of_lt_of_eq t.isLt (show cfg0.N = 256 from N_0)
  obtain ⟨-, -, -, -, -, -, e6, e7⟩ := Fold.index_facts t
  rw [Value.flushed3, Fold.output_at_last m c t h1]
  funext j
  obtain ⟨p, q, rfl⟩ : ∃ (p : Fin 512) (q : Fin 512), j = ix2 p q := ⟨j 0, j 1, eq_ix2 j⟩
  show k0_pay3 (outsAt0 m c t.val t.isLt).2 (iblk m c 2 t) (ix2 p q)
    = result m c (((cfg0.win 3).blk t).view.emb (ix2 p q))
  have r0 : (((cfg0.win 3).blk t).view.emb (ix2 p q) 0).val = 512 * (t.val / 32) + p.val := by
    show win0_3.index t (0 : Fin 2) * 512 + 1 * p.val = _
    rw [e6]; omega
  have r1 : (((cfg0.win 3).blk t).view.emb (ix2 p q) 1).val = 512 * (t.val / 4 % 8) + q.val := by
    show win0_3.index t (1 : Fin 2) * 512 + 1 * q.val = _
    rw [e7]; omega
  refine (Block.epilogue_apply _ (iblk m c 2 t) p q).trans ?_
  rw [Fold.total_after m c t (ix2 p q), Fold.bias_block m c t q (by omega)]
  unfold result
  rw [lin_blocked_at]
  refine congrArg₂ (· + ·) (congrArg ((0 : EReal) + ·) ?_) (congrArg _ (congrArg ix1 (Fin.ext r1.symm)))
  rw [h1]
  refine Finset.sum_congr rfl fun s hs => ?_
  have hs4 : s < 4 := Finset.mem_range.mp hs
  unfold Fold.partialProduct
  refine Finset.sum_congr rfl fun k _ => ?_
  have a1 : (4 * (t.val / 4) + s) / 32 = t.val / 32 := by omega
  have a2 : (4 * (t.val / 4) + s) % 4 = s := by omega
  have a3 : (4 * (t.val / 4) + s) / 4 % 8 = t.val / 4 % 8 := by omega
  rw [a1, a2, a3, r0, r1]

/-- An index of the result is in point `t`'s block iff each coordinate is in the block's range on its axis. -/
theorem mem_block (t : Fin cfg0.N) (i : S4096x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v2).slice (win0_3.rect t)).set ↔ _
  rw [View.set_slice_whole, Rect.mem_set_unit]
  exact Iff.rfl

/-- The blocks tile the result: index `i` is covered by the last point of the run of block row `i₀ / 512` and block column
    `i₁ / 512`. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 256 := N_0
  obtain ⟨t, hv⟩ : ∃ t : Fin cfg0.N, t.val = 32 * ((i 0).val / 512) + 4 * ((i 1).val / 512) + 3 :=
    ⟨⟨32 * ((i 0).val / 512) + 4 * ((i 1).val / 512) + 3, by rw [hN]; omega⟩, rfl⟩
  obtain ⟨-, -, -, -, -, -, e6, e7⟩ := Fold.index_facts t
  refine ⟨t, (flush0_3 t).mpr (by omega), ?_⟩
  rw [mem_block]
  intro a
  match a with
  | ⟨0, _⟩ => show win0_3.index t (0 : Fin 2) * 512 ≤ (i 0).val ∧ (i 0).val < win0_3.index t (0 : Fin 2) * 512 + 512; rw [e6]; omega
  | ⟨1, _⟩ => show win0_3.index t (1 : Fin 2) * 512 ≤ (i 1).val ∧ (i 1).val < win0_3.index t (1 : Fin 2) * 512 + 512; rw [e7]; omega

/-- The result array after the run. -/
theorem final (c : Dev nD) : (dats m 0 c).arrAt 3 cfg0.N = result m c :=
  (dats m 0 c).arrAt_eq_of_cover 3 (result m c) (fun t hf => flushed_eq m c t hf) cover

/-- The run: every weakly fair execution ends with the result array at the dense layer of the arguments, the arguments
    unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.ReferenceIdeal.Whole

end
-- ==== Proof.lean ====
/-
  A dense layer `y = x · Wᵀ + b` (4096 rows, 4096 input features, 4096 output features, the weights one row per output
  feature) computed two ways, equal over the extended reals.

  THE KERNEL contracts all 4096 positions in one matrix-unit product per output block: on a 4 × 8 grid each point multiplies 512
  rows of `x` by 1024 rows of `W` (contracting both on their last axis) and adds the bias row.
  THE REFERENCE transposes `W` first, and on an 8 × 8 × 4 grid walks the contraction in four blocks of 1024 positions: a
  running total, zero at the first block, takes each block's partial product, and at the last block the total plus the bias row
  is the output block.

  Entry `(p, q)` of the kernel's result is `Σ_{k<4096} x(p,k)·W(q,k) + b(q)`; of the reference's,
  `((((0 + S₀) + S₁) + S₂) + S₃) + b(q)` with `S_s = Σ_{j<1024} x(p, 1024 s + j)·W(q, 1024 s + j)`. The two agree because
  addition on the extended reals is commutative and associative with unit zero: a finite sum may be cut into consecutive runs.
  No product is distributed and nothing is cancelled, so infinite entries need no care and the finiteness precondition is not
  used. Both results are shown equal to ONE function `lin` of the argument arrays (LinearSpec), the kernel's block by block
  (KernelBlock, KernelValue) and the reference's through the running total after each grid point (RefBlock, RefPieces, RefFold,
  RefValue).

  The three frame claims are the generated frames. The idealized kernel is the kernel's own text read over the extended reals,
  so nothing is owed for it.
-/
import proofs.«157427_g2000006859831670_pallasbulk_53_3_alg».proof.Defs
import proofs.«157427_g2000006859831670_pallasbulk_53_3_alg».proof.Proof.Gen.Kernel
import proofs.«157427_g2000006859831670_pallasbulk_53_3_alg».proof.Proof.Gen.Kernel.Skeleton
import proofs.«157427_g2000006859831670_pallasbulk_53_3_alg».proof.Proof.Gen.Kernel.Launch
import proofs.«157427_g2000006859831670_pallasbulk_53_3_alg».proof.Proof.Gen.Kernel.Points
import proofs.«157427_g2000006859831670_pallasbulk_53_3_alg».proof.Proof.Gen.Kernel.Frame
import proofs.«157427_g2000006859831670_pallasbulk_53_3_alg».proof.Proof.Gen.KernelIdeal
import proofs.«157427_g2000006859831670_pallasbulk_53_3_alg».proof.Proof.Gen.KernelIdeal.Skeleton
import proofs.«157427_g2000006859831670_pallasbulk_53_3_alg».proof.Proof.Gen.KernelIdeal.Launch
import proofs.«157427_g2000006859831670_pallasbulk_53_3_alg».proof.Proof.Gen.KernelIdeal.Points
import proofs.«157427_g2000006859831670_pallasbulk_53_3_alg».proof.Proof.Gen.KernelIdeal.Frame
import proofs.«157427_g2000006859831670_pallasbulk_53_3_alg».proof.Proof.Gen.ReferenceIdeal
import proofs.«157427_g2000006859831670_pallasbulk_53_3_alg».proof.Proof.Gen.ReferenceIdeal.Skeleton
import proofs.«157427_g2000006859831670_pallasbulk_53_3_alg».proof.Proof.Gen.ReferenceIdeal.Launch
import proofs.«157427_g2000006859831670_pallasbulk_53_3_alg».proof.Proof.Gen.ReferenceIdeal.Points
import proofs.«157427_g2000006859831670_pallasbulk_53_3_alg».proof.Proof.Gen.ReferenceIdeal.Frame
import proofs.«157427_g2000006859831670_pallasbulk_53_3_alg».proof.Proof.Gen.Pre_finite_inputs
import proofs.«157427_g2000006859831670_pallasbulk_53_3_alg».proof.Proof.Gen.KernelIdeal.Value
import proofs.«157427_g2000006859831670_pallasbulk_53_3_alg».proof.Proof.Gen.ReferenceIdeal.Value
import proofs.«157427_g2000006859831670_pallasbulk_53_3_alg».proof.Proof.KernelValue
import proofs.«157427_g2000006859831670_pallasbulk_53_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Gen.frame m ρ

/-- From arguments that agree, both programs end with the result array at the dense layer `lin` of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Whole.run m' ρ')
  show Cert.LinearSpec.lin _ _ _ = Cert.LinearSpec.lin _ _ _
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
